-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S3x128x128 .f32) (main_arg3 : FVec F S3x128x128 .f32) (main_arg4 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 90
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000x1, .f32⟩
  | .hbm, ⟨11, _⟩ => ⟨S_, .f32⟩
  | .hbm, ⟨12, _⟩ => ⟨S100000x1, .f32⟩
  | .hbm, ⟨13, _⟩ => ⟨S1600000x1, .i32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128x128, .f32⟩
  | .hbm, ⟨37, _⟩ => ⟨S128x128, .f32⟩
  | .hbm, ⟨38, _⟩ => ⟨S1x128x128, .f32⟩
  | .hbm, ⟨39, _⟩ => ⟨S128x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128x128, .f32⟩
  | .hbm, ⟨83, _⟩ => ⟨S128x128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x128x128, .f32⟩
  | .hbm, ⟨10, _⟩ => ⟨S128x128, .f32⟩
  | .hbm, ⟨11, _⟩ => ⟨S1x128x128, .f32⟩
  | .hbm, ⟨12, _⟩ => ⟨S128x128, .f32⟩
  | .hbm, ⟨13, _⟩ => ⟨S1x128, .f32⟩
  | .hbm, ⟨14, _⟩ => ⟨S128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000x1, .f32⟩
  | .hbm, ⟨69, _⟩ => ⟨S_, .f32⟩
  | .hbm, ⟨70, _⟩ => ⟨S100000x1, .f32⟩
  | .hbm, ⟨71, _⟩ => ⟨S1600000x1, .i32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S1x128x128, .f32⟩
  | .hbm, ⟨88, _⟩ => ⟨S128x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S_, .f32⟩
  | .hbm, ⟨107, _⟩ => ⟨S1600000x1, .f32⟩
  | .hbm, ⟨108, _⟩ => ⟨S_, .f32⟩
  | .hbm, ⟨109, _⟩ => ⟨S100000x1, .f32⟩
  | .hbm, ⟨110, _⟩ => ⟨S1600000x1, .i32⟩
  | .hbm, ⟨111, _⟩ => ⟨S100000x1, .f32⟩
  | .hbm, ⟨112, _⟩ => ⟨S_, .f32⟩
  | .hbm, ⟨113, _⟩ => ⟨S100000x1, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S100000x128, .f32⟩
  | .hbm, ⟨119, _⟩ => ⟨S100000x128, .f32⟩
  | .hbm, ⟨120, _⟩ => ⟨S1x128, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call1_cst : Ref sig .tc := ⟨.hbm, 84, rfl⟩
abbrev main_call1_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_10 : Ref sig .tc := ⟨.hbm, 93, rfl⟩
abbrev main_v72 : Ref sig .tc := ⟨.hbm, 94, rfl⟩
abbrev main_v73 : Ref sig .tc := ⟨.hbm, 95, rfl⟩
abbrev main_c_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named.

  The program is three tiled dense-layer launches among stretches of array operations. Each launch leaves its
  output array at what its fifty row blocks write back and every other array as it found it; each stretch
  applies its operations in order. Folding these from the launch memory gives the contents of every array at
  the return, and in particular the result array. Every weakly fair execution terminates, nothing faults, the
  five argument arrays end as launched, and the result array ends holding that fold's value.
-/
import proofs.«175581_j90555090469222_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the fold's contents at the
    return and the five argument arrays end as launched. -/
theorem run_result : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.ResultRun

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.Payload.lean ====
/-
  The three launches' bodies as pure functions of the blocks they load, read at one entry.

  Each body casts its four matrix operands to a narrower float format (the identity on the extended reals),
  multiplies the [2000, 128] block of aggregated features by the [128, 128] aggregation weights and the
  [2000, 128] block of root features by the [128, 128] root weights, each into a zero accumulator, adds the two
  products, adds the [1, 128] bias row spread down the 2000 rows, and, in the first two launches, takes the
  maximum with zero. At entry (p, q) that is
      sum over k of a (p, k) * wl (k, q) + sum over k of x (p, k) * wr (k, q) + b (0, q),
  clamped below at zero in the first two.
-/
import proofs.«175581_j90555090469222_1_alg».proof.Proof.Gen.KernelIdeal.Skeleton
import proofs.«175581_j90555090469222_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The bodies' product contracts the left operand's columns with the right operand's rows and has no batch axis. -/
theorem dot_plain : dot_S2000x128_S128x128_S2000x128_1_0_0_1_n_n = DotDims.plain 2000 128 128 := rfl

/-- The bias row spread down the rows of a block, at entry (p, q): the row's entry q. -/
theorem bias_row (v : Vec Ideal S1x128 .f32) (p : Fin 2000) (q : Fin 128) :
    broadcastTo S2000x128 v broadcasts_S1x128_S2000x128 (ix2 p q) = v (ix2 (0 : Fin 1) q) :=
  broadcastTo_apply v broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else _; rw [if_neg (by decide)]; rfl)

/-- Body 0 at entry (p, q) of its block: the two products' entries added, plus the bias row's entry q, clamped below at zero. The changes of float format and the same-shape reshapes are identities on the extended reals. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k0_pay1
  simp only [shapeCast_self]
  show max (matmul dot_S2000x128_S128x128_S2000x128_1_0_0_1_n_n none (truncf .bf16 x0 bitsLt_bf16_f32) (truncf .bf16 x2 bitsLt_bf16_f32) (constant (F := Ideal) S2000x128 .f32 0x00000000#32) (ix2 p q)
      + matmul dot_S2000x128_S128x128_S2000x128_1_0_0_1_n_n none (truncf .bf16 x1 bitsLt_bf16_f32) (truncf .bf16 x3 bitsLt_bf16_f32) (constant (F := Ideal) S2000x128 .f32 0x00000000#32) (ix2 p q)
      + broadcastTo S2000x128 x4 broadcasts_S1x128_S2000x128 (ix2 p q)) (Ideal.ofBits .f32 0x00000000#32) = _
  rw [Cert.Lib.PlainDot.matmul_zero_apply _ dot_plain none _ _ p q, Cert.Lib.PlainDot.matmul_zero_apply _ dot_plain none _ _ p q,
    bias_row x4 p q, Ideal.ofBits_zero_f32]
  rfl

/-- Body 1 at entry (p, q) of its block: the two products' entries added, plus the bias row's entry q, clamped below at zero. The changes of float format and the same-shape reshapes are identities on the extended reals. -/
theorem pay1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k1_pay1
  simp only [shapeCast_self]
  show max (matmul dot_S2000x128_S128x128_S2000x128_1_0_0_1_n_n none (truncf .bf16 x0 bitsLt_bf16_f32) (truncf .bf16 x2 bitsLt_bf16_f32) (constant (F := Ideal) S2000x128 .f32 0x00000000#32) (ix2 p q)
      + matmul dot_S2000x128_S128x128_S2000x128_1_0_0_1_n_n none (truncf .bf16 x1 bitsLt_bf16_f32) (truncf .bf16 x3 bitsLt_bf16_f32) (constant (F := Ideal) S2000x128 .f32 0x00000000#32) (ix2 p q)
      + broadcastTo S2000x128 x4 broadcasts_S1x128_S2000x128 (ix2 p q)) (Ideal.ofBits .f32 0x00000000#32) = _
  rw [Cert.Lib.PlainDot.matmul_zero_apply _ dot_plain none _ _ p q, Cert.Lib.PlainDot.matmul_zero_apply _ dot_plain none _ _ p q,
    bias_row x4 p q, Ideal.ofBits_zero_f32]
  rfl

/-- Body 2 at entry (p, q) of its block: the two products' entries added, plus the bias row's entry q. The changes of float format and the same-shape reshapes are identities on the extended reals. -/
theorem pay2_apply (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k2_pay1
  simp only [shapeCast_self]
  show matmul dot_S2000x128_S128x128_S2000x128_1_0_0_1_n_n none (truncf .bf16 x0 bitsLt_bf16_f32) (truncf .bf16 x2 bitsLt_bf16_f32) (constant (F := Ideal) S2000x128 .f32 0x00000000#32) (ix2 p q)
      + matmul dot_S2000x128_S128x128_S2000x128_1_0_0_1_n_n none (truncf .bf16 x1 bitsLt_bf16_f32) (truncf .bf16 x3 bitsLt_bf16_f32) (constant (F := Ideal) S2000x128 .f32 0x00000000#32) (ix2 p q)
      + broadcastTo S2000x128 x4 broadcasts_S1x128_S2000x128 (ix2 p q) = _
  rw [Cert.Lib.PlainDot.matmul_zero_apply _ dot_plain none _ _ p q, Cert.Lib.PlainDot.matmul_zero_apply _ dot_plain none _ _ p q,
    bias_row x4 p q]
  rfl

end Cert.KernelIdeal.Body

end
-- ==== Proof.Spec.lean ====
/-
  The mathematics of one SAGE layer on the extended reals, stated without reference to either program.

  A layer takes the aggregated features a and the root features x (both [100000, 128]), two weight matrices
  (both [128, 128]) and a bias row ([1, 128]), and returns, at entry (p, q),
      sum over k of a (p, k) * wl (k, q)  +  sum over k of x (p, k) * wr (k, q)  +  b (0, q),
  clamped below at zero in the hidden layers.

  The mean over incoming edges divides the per-node sum s by the in-degree c clamped below at one. One
  program multiplies by the reciprocal 1 / c, the other divides by c. Off zero the quotient on the extended
  reals is the product with the inverse, and 1 / c is 1 * c⁻¹ = c⁻¹, so the two agree whenever c is not zero,
  with no finiteness assumption on s; and a maximum with one is at least one, hence not zero.
-/
import Idealize.ShloMosaic.Lib.ValueIdx
import Idealize.ShloMosaic.PureOps.Ideal

noncomputable section

open scoped BigOperators

namespace Cert.Sage

open Idealize.ShloMosaic Idealize.ShloMosaic.ValueIdx

/-- The affine part of a layer at entry (p, q). -/
def affineAt (a x : (⟨2, ![100000, 128]⟩ : Shape).Idx → EReal) (wl wr : (⟨2, ![128, 128]⟩ : Shape).Idx → EReal)
    (b : (⟨2, ![1, 128]⟩ : Shape).Idx → EReal) (p : Fin 100000) (q : Fin 128) : EReal :=
  (∑ k : Fin 128, a (ix2 p k) * wl (ix2 k q)) + (∑ k : Fin 128, x (ix2 p k) * wr (ix2 k q)) + b (ix2 (0 : Fin 1) q)

/-- A layer without the clamp (the last layer). -/
def affine (a x : (⟨2, ![100000, 128]⟩ : Shape).Idx → EReal) (wl wr : (⟨2, ![128, 128]⟩ : Shape).Idx → EReal)
    (b : (⟨2, ![1, 128]⟩ : Shape).Idx → EReal) : (⟨2, ![100000, 128]⟩ : Shape).Idx → EReal :=
  fun i => affineAt a x wl wr b (i 0) (i 1)

/-- A hidden layer: the affine part clamped below at zero. -/
def hidden (a x : (⟨2, ![100000, 128]⟩ : Shape).Idx → EReal) (wl wr : (⟨2, ![128, 128]⟩ : Shape).Idx → EReal)
    (b : (⟨2, ![1, 128]⟩ : Shape).Idx → EReal) : (⟨2, ![100000, 128]⟩ : Shape).Idx → EReal :=
  fun i => max (affineAt a x wl wr b (i 0) (i 1)) 0

/-- Multiplying by the reciprocal of a nonzero extended real is dividing by it. -/
theorem mul_recip_eq_div (s c : EReal) (hc : c ≠ 0) : s * Ideal.div 1 c = Ideal.div s c := by
  unfold Ideal.div
  rw [if_neg hc, if_neg hc, one_mul]

/-- A maximum with one is not zero. -/
theorem max_one_ne_zero (n : EReal) : max n 1 ≠ 0 := by
  have h : (0 : EReal) < max n 1 := lt_of_lt_of_le zero_lt_one (le_max_right n 1)
  exact ne_of_gt h

end Cert.Sage

end
-- ==== Proof.Region0.lean ====
/-
  Launch 0 of the dense layer, read as a whole-array function.

  The grid has fifty points; point t works on rows 2000 t … 2000 t + 1999 of the aggregated features and of the
  root features, on the whole of both weight matrices and on the whole bias row, and writes back rows
  2000 t … 2000 t + 1999 of the output. Entry (p, q) of the block it writes is the layer's value at row
  2000 t + p and column q of the full arrays, because the block's row p is the full array's row 2000 t + p
  and the weights and the bias are read whole. Row r of the output lies in the block of point r / 2000, so
  the fifty blocks cover the output, which therefore ends holding the layer's value everywhere.
  All of this is stated at arbitrary contents of the arrays on entry to the launch.
-/
import proofs.«175581_j90555090469222_1_alg».proof.Proof.Gen.KernelIdeal.Frame
import proofs.«175581_j90555090469222_1_alg».proof.Proof.Payload
import proofs.«175581_j90555090469222_1_alg».proof.Proof.Spec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

theorem points : cfg0.N = 50 := N_0

/-- The block index of every window at every grid point: the row-blocked windows sit at block row t, the weights
    and the bias at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-features block at point t is row 2000 t + p of the array. -/
theorem agg_block (c : Dev nD) (t : Fin cfg0.N) (p : Fin 2000) (k : Fin 128) (hp : t.val * 2000 + p.val < 100000) :
    iblk0 V c 0 t (ix2 p k) = V c main_v23 (ix2 ⟨t.val * 2000 + p.val, hp⟩ k) := by
  show V c main_v23 (((cfg0.win 0).blk t).view.emb (ix2 p k)) = _
  refine congrArg _ (funext fun a => Fin.ext ?_)
  obtain ⟨e0, e1, -⟩ := block_index t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row p of the root-features block at point t is row 2000 t + p of the array. -/
theorem root_block (c : Dev nD) (t : Fin cfg0.N) (p : Fin 2000) (k : Fin 128) (hp : t.val * 2000 + p.val < 100000) :
    iblk0 V c 1 t (ix2 p k) = V c main_arg0 (ix2 ⟨t.val * 2000 + p.val, hp⟩ k) := by
  show V c main_arg0 (((cfg0.win 1).blk t).view.emb (ix2 p k)) = _
  refine congrArg _ (funext fun a => Fin.ext ?_)
  obtain ⟨-, -, e0, e1, -⟩ := block_index t
  match a with
  | ⟨0, _⟩ => show win0_1.index t (0 : Fin 2) * 2000 + 1 * p.val = t.val * 2000 + p.val; omega
  | ⟨1, _⟩ => show win0_1.index t (1 : Fin 2) * 128 + 1 * k.val = k.val; omega

/-- The aggregation weights are read whole at every point. -/
theorem wl_block (c : Dev nD) (t : Fin cfg0.N) (k q : Fin 128) :
    iblk0 V c 2 t (ix2 k q) = V c main_v25 (ix2 k q) := by
  show V c main_v25 (((cfg0.win 2).blk t).view.emb (ix2 k q)) = _
  refine congrArg _ (funext fun a => Fin.ext ?_)
  obtain ⟨-, -, -, -, e0, e1, -⟩ := block_index t
  match a with
  | ⟨0, _⟩ => show win0_2.index t (0 : Fin 2) * 128 + 1 * k.val = k.val; omega
  | ⟨1, _⟩ => show win0_2.index t (1 : Fin 2) * 128 + 1 * q.val = q.val; omega

/-- The root weights are read whole at every point. -/
theorem wr_block (c : Dev nD) (t : Fin cfg0.N) (k q : Fin 128) :
    iblk0 V c 3 t (ix2 k q) = V c main_v27 (ix2 k q) := by
  show V c main_v27 (((cfg0.win 3).blk t).view.emb (ix2 k q)) = _
  refine congrArg _ (funext fun a => Fin.ext ?_)
  obtain ⟨-, -, -, -, -, -, e0, e1, -⟩ := block_index t
  match a with
  | ⟨0, _⟩ => show win0_3.index t (0 : Fin 2) * 128 + 1 * k.val = k.val; omega
  | ⟨1, _⟩ => show win0_3.index t (1 : Fin 2) * 128 + 1 * q.val = q.val; omega

/-- The bias row is read whole at every point. -/
theorem bias_block (c : Dev nD) (t : Fin cfg0.N) (q : Fin 128) :
    iblk0 V c 4 t (ix2 (0 : Fin 1) q) = V c main_v30 (ix2 (0 : Fin 1) q) := by
  show V c main_v30 (((cfg0.win 4).blk t).view.emb (ix2 (0 : Fin 1) q)) = _
  refine congrArg _ (funext fun a => Fin.ext ?_)
  obtain ⟨-, -, -, -, -, -, -, -, e0, e1, -⟩ := block_index t
  match a with
  | ⟨0, _⟩ => show win0_4.index t (0 : Fin 2) * 1 + 1 * 0 = 0; omega
  | ⟨1, _⟩ => show win0_4.index t (1 : Fin 2) * 128 + 1 * q.val = q.val; omega

/-- Entry (p, q) of the output block at point t is entry (2000 t + p, q) of the output array. -/
theorem out_entry (t : Fin cfg0.N) (p : Fin 2000) (q : Fin 128) (hp : t.val * 2000 + p.val < 100000) :
    ((cfg0.win 5).blk t).view.emb (ix2 p q) = ix2 ⟨t.val * 2000 + p.val, hp⟩ q := by
  refine funext fun a => Fin.ext ?_
  obtain ⟨-, -, -, -, -, -, -, -, -, -, e0, e1⟩ := block_index t
  match a with
  | ⟨0, _⟩ => show win0_5.index t (0 : Fin 2) * 2000 + 1 * p.val = t.val * 2000 + p.val; omega
  | ⟨1, _⟩ => show win0_5.index t (1 : Fin 2) * 128 + 1 * q.val = q.val; omega

/-- What point t writes back is block t of the layer's value of the arrays as the launch finds them. -/
theorem flushed (c : Dev nD) (t : Fin cfg0.N) :
    (dat0 V c).flushed 5 t = ((cfg0.win 5).blk t).view.read (Elt Ideal)
      (Cert.Sage.hidden (V c main_v23) (V c main_arg0) (V c main_v25) (V c main_v27) (V c main_v30)) := by
  show (cfg0.win 5).cut (grid0.coords t) ((dat0 V c).after 5 t) = _
  rw [after0_5]
  unfold out0_5
  rw [View.canon_unit_zero off_zero]
  simp only [View.ld_unit_zero (S := S2000x128) off_zero, View.ld_unit_zero (S := S128x128) off_zero,
    View.ld_unit_zero (S := S1x128) off_zero]
  funext j
  obtain ⟨p, q, rfl⟩ : ∃ (p : Fin 2000) (q : Fin 128), j = ix2 p q := ⟨j 0, j 1, eq_ix2 j⟩
  have ht : t.val < 50 := lt_of_lt_of_eq t.isLt points
  have hp : t.val * 2000 + p.val < 100000 := by have := p.isLt; omega
  show k0_pay1 (iblk0 V c 0 t) (iblk0 V c 1 t) (iblk0 V c 2 t) (iblk0 V c 3 t) (iblk0 V c 4 t) (ix2 p q)
    = Cert.Sage.hidden (V c main_v23) (V c main_arg0) (V c main_v25) (V c main_v27) (V c main_v30) (((cfg0.win 5).blk t).view.emb (ix2 p q))
  rw [out_entry t p q hp]
  refine (Cert.KernelIdeal.Body.pay0_apply _ _ _ _ _ p q).trans ?_
  show max _ 0 = max (Cert.Sage.affineAt (V c main_v23) (V c main_arg0) (V c main_v25) (V c main_v27) (V c main_v30) ⟨t.val * 2000 + p.val, hp⟩ q) 0
  refine congrArg (fun z => max z (0 : EReal)) ?_
  unfold Cert.Sage.affineAt
  refine congrArg₂ (· + ·) (congrArg₂ (· + ·) (Finset.sum_congr rfl fun k _ => ?_) (Finset.sum_congr rfl fun k _ => ?_)) ?_
  · rw [agg_block V c t p k hp, wl_block V c t k q]
  · rw [root_block V c t p k hp, wr_block V c t k q]
  · exact bias_block V c t q

/-- An index of the output array lies in point t's block iff each coordinate lies in the block's range. -/
theorem mem_block (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v31).slice (win0_5.rect t)).set ↔ _
  rw [View.set_slice_whole, Rect.mem_set_unit]
  exact Iff.rfl

/-- Row r of the output lies in the block of point r / 2000: the blocks cover the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := by rw [points]; omega
  obtain ⟨-, -, -, -, -, -, -, -, -, -, e0, e1⟩ := block_index ⟨(i 0).val / 2000, hN⟩
  refine ⟨⟨(i 0).val / 2000, hN⟩, flush0_5 _, ?_⟩
  rw [mem_block]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    omega

/-- The output array after the launch: the layer's value of the arrays as the launch finds them. -/
theorem final (c : Dev nD) :
    (dat0 V c).arrAt 5 cfg0.N
      = Cert.Sage.hidden (V c main_v23) (V c main_arg0) (V c main_v25) (V c main_v27) (V c main_v30) :=
  (dat0 V c).arrAt_eq_of_cover 5 _ (fun t _ => flushed V c t) covered

end Cert.KernelIdeal.Region0

end
-- ==== Proof.Region1.lean ====
/-
  Launch 1 of the dense layer, read as a whole-array function.

  The grid has fifty points; point t works on rows 2000 t … 2000 t + 1999 of the aggregated features and of the
  root features, on the whole of both weight matrices and on the whole bias row, and writes back rows
  2000 t … 2000 t + 1999 of the output. Entry (p, q) of the block it writes is the layer's value at row
  2000 t + p and column q of the full arrays, because the block's row p is the full array's row 2000 t + p
  and the weights and the bias are read whole. Row r of the output lies in the block of point r / 2000, so
  the fifty blocks cover the output, which therefore ends holding the layer's value everywhere.
  All of this is stated at arbitrary contents of the arrays on entry to the launch.
-/
import proofs.«175581_j90555090469222_1_alg».proof.Proof.Gen.KernelIdeal.Frame
import proofs.«175581_j90555090469222_1_alg».proof.Proof.Payload
import proofs.«175581_j90555090469222_1_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

theorem points : cfg1.N = 50 := N_1

/-- The block index of every window at every grid point: the row-blocked windows sit at block row t, the weights
    and the bias at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated-features block at point t is row 2000 t + p of the array. -/
theorem agg_block (c : Dev nD) (t : Fin cfg1.N) (p : Fin 2000) (k : Fin 128) (hp : t.val * 2000 + p.val < 100000) :
    iblk1 V c 0 t (ix2 p k) = V c main_v43 (ix2 ⟨t.val * 2000 + p.val, hp⟩ k) := by
  show V c main_v43 (((cfg1.win 0).blk t).view.emb (ix2 p k)) = _
  refine congrArg _ (funext fun a => Fin.ext ?_)
  obtain ⟨e0, e1, -⟩ := block_index t
  match a with
  | ⟨0, _⟩ => show win1_0.index t (0 : Fin 2) * 2000 + 1 * p.val = t.val * 2000 + p.val; omega
  | ⟨1, _⟩ => show win1_0.index t (1 : Fin 2) * 128 + 1 * k.val = k.val; omega

/-- Row p of the root-features block at point t is row 2000 t + p of the array. -/
theorem root_block (c : Dev nD) (t : Fin cfg1.N) (p : Fin 2000) (k : Fin 128) (hp : t.val * 2000 + p.val < 100000) :
    iblk1 V c 1 t (ix2 p k) = V c main_v31 (ix2 ⟨t.val * 2000 + p.val, hp⟩ k) := by
  show V c main_v31 (((cfg1.win 1).blk t).view.emb (ix2 p k)) = _
  refine congrArg _ (funext fun a => Fin.ext ?_)
  obtain ⟨-, -, e0, e1, -⟩ := block_index t
  match a with
  | ⟨0, _⟩ => show win1_1.index t (0 : Fin 2) * 2000 + 1 * p.val = t.val * 2000 + p.val; omega
  | ⟨1, _⟩ => show win1_1.index t (1 : Fin 2) * 128 + 1 * k.val = k.val; omega

/-- The aggregation weights are read whole at every point. -/
theorem wl_block (c : Dev nD) (t : Fin cfg1.N) (k q : Fin 128) :
    iblk1 V c 2 t (ix2 k q) = V c main_v45 (ix2 k q) := by
  show V c main_v45 (((cfg1.win 2).blk t).view.emb (ix2 k q)) = _
  refine congrArg _ (funext fun a => Fin.ext ?_)
  obtain ⟨-, -, -, -, e0, e1, -⟩ := block_index t
  match a with
  | ⟨0, _⟩ => show win1_2.index t (0 : Fin 2) * 128 + 1 * k.val = k.val; omega
  | ⟨1, _⟩ => show win1_2.index t (1 : Fin 2) * 128 + 1 * q.val = q.val; omega

/-- The root weights are read whole at every point. -/
theorem wr_block (c : Dev nD) (t : Fin cfg1.N) (k q : Fin 128) :
    iblk1 V c 3 t (ix2 k q) = V c main_v47 (ix2 k q) := by
  show V c main_v47 (((cfg1.win 3).blk t).view.emb (ix2 k q)) = _
  refine congrArg _ (funext fun a => Fin.ext ?_)
  obtain ⟨-, -, -, -, -, -, e0, e1, -⟩ := block_index t
  match a with
  | ⟨0, _⟩ => show win1_3.index t (0 : Fin 2) * 128 + 1 * k.val = k.val; omega
  | ⟨1, _⟩ => show win1_3.index t (1 : Fin 2) * 128 + 1 * q.val = q.val; omega

/-- The bias row is read whole at every point. -/
theorem bias_block (c : Dev nD) (t : Fin cfg1.N) (q : Fin 128) :
    iblk1 V c 4 t (ix2 (0 : Fin 1) q) = V c main_v50 (ix2 (0 : Fin 1) q) := by
  show V c main_v50 (((cfg1.win 4).blk t).view.emb (ix2 (0 : Fin 1) q)) = _
  refine congrArg _ (funext fun a => Fin.ext ?_)
  obtain ⟨-, -, -, -, -, -, -, -, e0, e1, -⟩ := block_index t
  match a with
  | ⟨0, _⟩ => show win1_4.index t (0 : Fin 2) * 1 + 1 * 0 = 0; omega
  | ⟨1, _⟩ => show win1_4.index t (1 : Fin 2) * 128 + 1 * q.val = q.val; omega

/-- Entry (p, q) of the output block at point t is entry (2000 t + p, q) of the output array. -/
theorem out_entry (t : Fin cfg1.N) (p : Fin 2000) (q : Fin 128) (hp : t.val * 2000 + p.val < 100000) :
    ((cfg1.win 5).blk t).view.emb (ix2 p q) = ix2 ⟨t.val * 2000 + p.val, hp⟩ q := by
  refine funext fun a => Fin.ext ?_
  obtain ⟨-, -, -, -, -, -, -, -, -, -, e0, e1⟩ := block_index t
  match a with
  | ⟨0, _⟩ => show win1_5.index t (0 : Fin 2) * 2000 + 1 * p.val = t.val * 2000 + p.val; omega
  | ⟨1, _⟩ => show win1_5.index t (1 : Fin 2) * 128 + 1 * q.val = q.val; omega

/-- What point t writes back is block t of the layer's value of the arrays as the launch finds them. -/
theorem flushed (c : Dev nD) (t : Fin cfg1.N) :
    (dat1 V c).flushed 5 t = ((cfg1.win 5).blk t).view.read (Elt Ideal)
      (Cert.Sage.hidden (V c main_v43) (V c main_v31) (V c main_v45) (V c main_v47) (V c main_v50)) := by
  show (cfg1.win 5).cut (grid1.coords t) ((dat1 V c).after 5 t) = _
  rw [after1_5]
  unfold out1_5
  rw [View.canon_unit_zero off_zero]
  simp only [View.ld_unit_zero (S := S2000x128) off_zero, View.ld_unit_zero (S := S128x128) off_zero,
    View.ld_unit_zero (S := S1x128) off_zero]
  funext j
  obtain ⟨p, q, rfl⟩ : ∃ (p : Fin 2000) (q : Fin 128), j = ix2 p q := ⟨j 0, j 1, eq_ix2 j⟩
  have ht : t.val < 50 := lt_of_lt_of_eq t.isLt points
  have hp : t.val * 2000 + p.val < 100000 := by have := p.isLt; omega
  show k1_pay1 (iblk1 V c 0 t) (iblk1 V c 1 t) (iblk1 V c 2 t) (iblk1 V c 3 t) (iblk1 V c 4 t) (ix2 p q)
    = Cert.Sage.hidden (V c main_v43) (V c main_v31) (V c main_v45) (V c main_v47) (V c main_v50) (((cfg1.win 5).blk t).view.emb (ix2 p q))
  rw [out_entry t p q hp]
  refine (Cert.KernelIdeal.Body.pay1_apply _ _ _ _ _ p q).trans ?_
  show max _ 0 = max (Cert.Sage.affineAt (V c main_v43) (V c main_v31) (V c main_v45) (V c main_v47) (V c main_v50) ⟨t.val * 2000 + p.val, hp⟩ q) 0
  refine congrArg (fun z => max z (0 : EReal)) ?_
  unfold Cert.Sage.affineAt
  refine congrArg₂ (· + ·) (congrArg₂ (· + ·) (Finset.sum_congr rfl fun k _ => ?_) (Finset.sum_congr rfl fun k _ => ?_)) ?_
  · rw [agg_block V c t p k hp, wl_block V c t k q]
  · rw [root_block V c t p k hp, wr_block V c t k q]
  · exact bias_block V c t q

/-- An index of the output array lies in point t's block iff each coordinate lies in the block's range. -/
theorem mem_block (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v51).slice (win1_5.rect t)).set ↔ _
  rw [View.set_slice_whole, Rect.mem_set_unit]
  exact Iff.rfl

/-- Row r of the output lies in the block of point r / 2000: the blocks cover the array. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 2000 < cfg1.N := by rw [points]; omega
  obtain ⟨-, -, -, -, -, -, -, -, -, -, e0, e1⟩ := block_index ⟨(i 0).val / 2000, hN⟩
  refine ⟨⟨(i 0).val / 2000, hN⟩, flush1_5 _, ?_⟩
  rw [mem_block]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    omega

/-- The output array after the launch: the layer's value of the arrays as the launch finds them. -/
theorem final (c : Dev nD) :
    (dat1 V c).arrAt 5 cfg1.N
      = Cert.Sage.hidden (V c main_v43) (V c main_v31) (V c main_v45) (V c main_v47) (V c main_v50) :=
  (dat1 V c).arrAt_eq_of_cover 5 _ (fun t _ => flushed V c t) covered

end Cert.KernelIdeal.Region1

end
-- ==== Proof.Region2.lean ====
/-
  Launch 2 of the dense layer, read as a whole-array function.

  The grid has fifty points; point t works on rows 2000 t … 2000 t + 1999 of the aggregated features and of the
  root features, on the whole of both weight matrices and on the whole bias row, and writes back rows
  2000 t … 2000 t + 1999 of the output. Entry (p, q) of the block it writes is the layer's value at row
  2000 t + p and column q of the full arrays, because the block's row p is the full array's row 2000 t + p
  and the weights and the bias are read whole. Row r of the output lies in the block of point r / 2000, so
  the fifty blocks cover the output, which therefore ends holding the layer's value everywhere.
  All of this is stated at arbitrary contents of the arrays on entry to the launch.
-/
import proofs.«175581_j90555090469222_1_alg».proof.Proof.Gen.KernelIdeal.Frame
import proofs.«175581_j90555090469222_1_alg».proof.Proof.Payload
import proofs.«175581_j90555090469222_1_alg».proof.Proof.Spec
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

theorem points : cfg2.N = 50 := N_2

/-- The block index of every window at every grid point: the row-blocked windows sit at block row t, the weights
    and the bias at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the aggregated-features block at point t is row 2000 t + p of the array. -/
theorem agg_block (c : Dev nD) (t : Fin cfg2.N) (p : Fin 2000) (k : Fin 128) (hp : t.val * 2000 + p.val < 100000) :
    iblk2 V c 0 t (ix2 p k) = V c main_v63 (ix2 ⟨t.val * 2000 + p.val, hp⟩ k) := by
  show V c main_v63 (((cfg2.win 0).blk t).view.emb (ix2 p k)) = _
  refine congrArg _ (funext fun a => Fin.ext ?_)
  obtain ⟨e0, e1, -⟩ := block_index t
  match a with
  | ⟨0, _⟩ => show win2_0.index t (0 : Fin 2) * 2000 + 1 * p.val = t.val * 2000 + p.val; omega
  | ⟨1, _⟩ => show win2_0.index t (1 : Fin 2) * 128 + 1 * k.val = k.val; omega

/-- Row p of the root-features block at point t is row 2000 t + p of the array. -/
theorem root_block (c : Dev nD) (t : Fin cfg2.N) (p : Fin 2000) (k : Fin 128) (hp : t.val * 2000 + p.val < 100000) :
    iblk2 V c 1 t (ix2 p k) = V c main_v51 (ix2 ⟨t.val * 2000 + p.val, hp⟩ k) := by
  show V c main_v51 (((cfg2.win 1).blk t).view.emb (ix2 p k)) = _
  refine congrArg _ (funext fun a => Fin.ext ?_)
  obtain ⟨-, -, e0, e1, -⟩ := block_index t
  match a with
  | ⟨0, _⟩ => show win2_1.index t (0 : Fin 2) * 2000 + 1 * p.val = t.val * 2000 + p.val; omega
  | ⟨1, _⟩ => show win2_1.index t (1 : Fin 2) * 128 + 1 * k.val = k.val; omega

/-- The aggregation weights are read whole at every point. -/
theorem wl_block (c : Dev nD) (t : Fin cfg2.N) (k q : Fin 128) :
    iblk2 V c 2 t (ix2 k q) = V c main_v65 (ix2 k q) := by
  show V c main_v65 (((cfg2.win 2).blk t).view.emb (ix2 k q)) = _
  refine congrArg _ (funext fun a => Fin.ext ?_)
  obtain ⟨-, -, -, -, e0, e1, -⟩ := block_index t
  match a with
  | ⟨0, _⟩ => show win2_2.index t (0 : Fin 2) * 128 + 1 * k.val = k.val; omega
  | ⟨1, _⟩ => show win2_2.index t (1 : Fin 2) * 128 + 1 * q.val = q.val; omega

/-- The root weights are read whole at every point. -/
theorem wr_block (c : Dev nD) (t : Fin cfg2.N) (k q : Fin 128) :
    iblk2 V c 3 t (ix2 k q) = V c main_v67 (ix2 k q) := by
  show V c main_v67 (((cfg2.win 3).blk t).view.emb (ix2 k q)) = _
  refine congrArg _ (funext fun a => Fin.ext ?_)
  obtain ⟨-, -, -, -, -, -, e0, e1, -⟩ := block_index t
  match a with
  | ⟨0, _⟩ => show win2_3.index t (0 : Fin 2) * 128 + 1 * k.val = k.val; omega
  | ⟨1, _⟩ => show win2_3.index t (1 : Fin 2) * 128 + 1 * q.val = q.val; omega

/-- The bias row is read whole at every point. -/
theorem bias_block (c : Dev nD) (t : Fin cfg2.N) (q : Fin 128) :
    iblk2 V c 4 t (ix2 (0 : Fin 1) q) = V c main_v70 (ix2 (0 : Fin 1) q) := by
  show V c main_v70 (((cfg2.win 4).blk t).view.emb (ix2 (0 : Fin 1) q)) = _
  refine congrArg _ (funext fun a => Fin.ext ?_)
  obtain ⟨-, -, -, -, -, -, -, -, e0, e1, -⟩ := block_index t
  match a with
  | ⟨0, _⟩ => show win2_4.index t (0 : Fin 2) * 1 + 1 * 0 = 0; omega
  | ⟨1, _⟩ => show win2_4.index t (1 : Fin 2) * 128 + 1 * q.val = q.val; omega

/-- Entry (p, q) of the output block at point t is entry (2000 t + p, q) of the output array. -/
theorem out_entry (t : Fin cfg2.N) (p : Fin 2000) (q : Fin 128) (hp : t.val * 2000 + p.val < 100000) :
    ((cfg2.win 5).blk t).view.emb (ix2 p q) = ix2 ⟨t.val * 2000 + p.val, hp⟩ q := by
  refine funext fun a => Fin.ext ?_
  obtain ⟨-, -, -, -, -, -, -, -, -, -, e0, e1⟩ := block_index t
  match a with
  | ⟨0, _⟩ => show win2_5.index t (0 : Fin 2) * 2000 + 1 * p.val = t.val * 2000 + p.val; omega
  | ⟨1, _⟩ => show win2_5.index t (1 : Fin 2) * 128 + 1 * q.val = q.val; omega

/-- What point t writes back is block t of the layer's value of the arrays as the launch finds them. -/
theorem flushed (c : Dev nD) (t : Fin cfg2.N) :
    (dat2 V c).flushed 5 t = ((cfg2.win 5).blk t).view.read (Elt Ideal)
      (Cert.Sage.affine (V c main_v63) (V c main_v51) (V c main_v65) (V c main_v67) (V c main_v70)) := by
  show (cfg2.win 5).cut (grid2.coords t) ((dat2 V c).after 5 t) = _
  rw [after2_5]
  unfold out2_5
  rw [View.canon_unit_zero off_zero]
  simp only [View.ld_unit_zero (S := S2000x128) off_zero, View.ld_unit_zero (S := S128x128) off_zero,
    View.ld_unit_zero (S := S1x128) off_zero]
  funext j
  obtain ⟨p, q, rfl⟩ : ∃ (p : Fin 2000) (q : Fin 128), j = ix2 p q := ⟨j 0, j 1, eq_ix2 j⟩
  have ht : t.val < 50 := lt_of_lt_of_eq t.isLt points
  have hp : t.val * 2000 + p.val < 100000 := by have := p.isLt; omega
  show k2_pay1 (iblk2 V c 0 t) (iblk2 V c 1 t) (iblk2 V c 2 t) (iblk2 V c 3 t) (iblk2 V c 4 t) (ix2 p q)
    = Cert.Sage.affine (V c main_v63) (V c main_v51) (V c main_v65) (V c main_v67) (V c main_v70) (((cfg2.win 5).blk t).view.emb (ix2 p q))
  rw [out_entry t p q hp]
  refine (Cert.KernelIdeal.Body.pay2_apply _ _ _ _ _ p q).trans ?_
  show _ = Cert.Sage.affineAt (V c main_v63) (V c main_v51) (V c main_v65) (V c main_v67) (V c main_v70) ⟨t.val * 2000 + p.val, hp⟩ q
  unfold Cert.Sage.affineAt
  refine congrArg₂ (· + ·) (congrArg₂ (· + ·) (Finset.sum_congr rfl fun k _ => ?_) (Finset.sum_congr rfl fun k _ => ?_)) ?_
  · rw [agg_block V c t p k hp, wl_block V c t k q]
  · rw [root_block V c t p k hp, wr_block V c t k q]
  · exact bias_block V c t q

/-- An index of the output array lies in point t's block iff each coordinate lies in the block's range. -/
theorem mem_block (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v71).slice (win2_5.rect t)).set ↔ _
  rw [View.set_slice_whole, Rect.mem_set_unit]
  exact Iff.rfl

/-- Row r of the output lies in the block of point r / 2000: the blocks cover the array. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 2000 < cfg2.N := by rw [points]; omega
  obtain ⟨-, -, -, -, -, -, -, -, -, -, e0, e1⟩ := block_index ⟨(i 0).val / 2000, hN⟩
  refine ⟨⟨(i 0).val / 2000, hN⟩, flush2_5 _, ?_⟩
  rw [mem_block]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, hN⟩ (1 : Fin 2) * 128 ≤ (i 1).val ∧ (i 1).val < win2_5.index ⟨(i 0).val / 2000, hN⟩ (1 : Fin 2) * 128 + 128
    omega

/-- The output array after the launch: the layer's value of the arrays as the launch finds them. -/
theorem final (c : Dev nD) :
    (dat2 V c).arrAt 5 cfg2.N
      = Cert.Sage.affine (V c main_v63) (V c main_v51) (V c main_v65) (V c main_v67) (V c main_v70) :=
  (dat2 V c).arrAt_eq_of_cover 5 _ (fun t _ => flushed V c t) covered

end Cert.KernelIdeal.Region2

end
-- ==== Proof.Bridge.lean ====
/-
  Three array-level identities on the extended reals that join the two programs' spellings of one layer.

  The mean. With s the per-node sum and n the in-degree column, one program forms s * spread (1 / max n 1) and
  the other s / spread (max n 1), where spread copies a column entry along its row. At an entry both read the
  same column entry c = max n 1, the constant column reads 1, c is not zero, and s * (1 / c) = s / c.

  The dense layer. The sum over k of a (p, k) * wl (k, q) is the matrix product of a and wl at (p, q); so the
  layer's value is the two matrix products added, plus the bias row spread down the columns, and for a hidden
  layer the maximum of that with the zero array.

  The bias row. A length-128 vector laid out as a [1, 128] row is the same row whether by a reshape or by a
  broadcast along a new leading axis of extent one: entry (0, q) is entry q.
-/
import proofs.«175581_j90555090469222_1_alg».proof.Proof.Spec
import proofs.«175581_j90555090469222_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Sage.Bridge

open Idealize.ShloMosaic Idealize.ShloMosaic.ValueIdx

/-- The shapes of a layer: node features, a degree column, a weight matrix, a bias row, a bias vector, a scalar. -/
abbrev SX : Shape := ⟨2, ![100000, 128]⟩
abbrev SC : Shape := ⟨2, ![100000, 1]⟩
abbrev SW : Shape := ⟨2, ![128, 128]⟩
abbrev SR : Shape := ⟨2, ![1, 128]⟩
abbrev SV : Shape := ⟨1, ![128]⟩
abbrev S0 : Shape := ⟨0, ![]⟩

variable (hone : S0.BroadcastsInDim SC (![] : Fin 0 → Fin SC.rank))
  (hcol : SC.BroadcastsInDim SX (![0, 1] : Fin 2 → Fin SX.rank))
  (hrow : SR.BroadcastsInDim SX (![0, 1] : Fin 2 → Fin SX.rank))
  (hzero : S0.BroadcastsInDim SX (![] : Fin 0 → Fin SX.rank))
  (hvec : SV.BroadcastsInDim SR (![1] : Fin 1 → Fin SR.rank))
  (hcast : SV.ShapeCasts SR)
  (D : DotDims SX SW SX)

/-- The column of ones. -/
abbrev onesCol : FVec Ideal SC .f32 :=
  broadcastInDim SC ![] hone (constant (F := Ideal) S0 .f32 0x3F800000#32)

/-- The column index an entry of the spread column reads: its own row, column zero. -/
abbrev colOf (i : SX.Idx) : SC.Idx := fun a => match a with
  | ⟨0, _⟩ => ⟨(i 0).val, (i 0).isLt⟩
  | ⟨1, _⟩ => ⟨0, Nat.one_pos⟩

/-- A column spread along its rows, at an entry. -/
theorem spread_apply (y : FVec Ideal SC .f32) (i : SX.Idx) :
    broadcastInDim SX ![0, 1] hcol y i = y (colOf i) :=
  broadcastInDim_apply _ hcol y i (colOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The column of ones reads one. -/
theorem onesCol_apply (j : SC.Idx) : (onesCol hone) j = 1 := by
  show Ideal.ofBits .f32 0x3F800000#32 = 1
  exact Ideal.ofBits_one_f32

/-- THE MEAN: multiplying the sums by the spread reciprocal of the clamped in-degree is dividing them by the
    spread clamped in-degree. -/
theorem mean_eq (s : FVec Ideal SX .f32) (n : FVec Ideal SC .f32) :
    mulf s (broadcastInDim SX ![0, 1] hcol (Host.divf (onesCol hone) (maximumf n (onesCol hone))))
      = Host.divf s (broadcastInDim SX ![0, 1] hcol (maximumf n (onesCol hone))) := by
  funext i
  show s i * broadcastInDim SX ![0, 1] hcol (Host.divf (onesCol hone) (maximumf n (onesCol hone))) i
    = Ideal.div (s i) (broadcastInDim SX ![0, 1] hcol (maximumf n (onesCol hone)) i)
  rw [spread_apply, spread_apply]
  show s i * Ideal.div ((onesCol hone) (colOf i)) (max (n (colOf i)) ((onesCol hone) (colOf i)))
    = Ideal.div (s i) (max (n (colOf i)) ((onesCol hone) (colOf i)))
  rw [onesCol_apply]
  exact Cert.Sage.mul_recip_eq_div _ _ (Cert.Sage.max_one_ne_zero _)

/-- The row index an entry of the spread bias reads: row zero, its own column. -/
abbrev rowOf (i : SX.Idx) : SR.Idx := fun a => match a with
  | ⟨0, _⟩ => ⟨0, Nat.one_pos⟩
  | ⟨1, _⟩ => ⟨(i 1).val, (i 1).isLt⟩

/-- A row spread down its columns, at an entry. -/
theorem spreadRow_apply (y : FVec Ideal SR .f32) (i : SX.Idx) :
    broadcastInDim SX ![0, 1] hrow y i = y (rowOf i) :=
  broadcastInDim_apply _ hrow y i (rowOf i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- THE DENSE LAYER without the clamp: the two matrix products added, plus the spread bias row. -/
theorem affine_eq (hD : D = DotDims.plain 100000 128 128) (a x : FVec Ideal SX .f32) (wl wr : FVec Ideal SW .f32) (b : FVec Ideal SR .f32) :
    Cert.Sage.affine a x wl wr b
      = addf (addf (Host.dotGeneral D none a wl)
                   (Host.dotGeneral D none x wr))
             (broadcastInDim SX ![0, 1] hrow b) := by
  funext i
  obtain ⟨p, q, rfl⟩ : ∃ (p : Fin 100000) (q : Fin 128), i = ix2 p q := ⟨i 0, i 1, eq_ix2 i⟩
  show Cert.Sage.affineAt a x wl wr b p q
    = Host.dotGeneral D none a wl (ix2 p q)
      + Host.dotGeneral D none x wr (ix2 p q)
      + broadcastInDim SX ![0, 1] hrow b (ix2 p q)
  rw [Cert.Lib.PlainDot.dotGeneral_apply D hD none a wl p q,
    Cert.Lib.PlainDot.dotGeneral_apply D hD none x wr p q, spreadRow_apply]
  have hr : rowOf (ix2 p q) = ix2 (0 : Fin 1) q := funext fun d => match d with
    | ⟨0, _⟩ => rfl
    | ⟨1, _⟩ => rfl
  rw [hr]
  rfl

/-- The zero array. -/
abbrev zeros : FVec Ideal SX .f32 :=
  broadcastInDim SX ![] hzero (constant (F := Ideal) S0 .f32 0x00000000#32)

theorem zeros_apply (i : SX.Idx) : (zeros hzero) i = 0 := by
  show Ideal.ofBits .f32 0x00000000#32 = 0
  exact Ideal.ofBits_zero_f32

/-- THE HIDDEN LAYER: the affine part clamped below by the zero array. -/
theorem hidden_eq (hD : D = DotDims.plain 100000 128 128) (a x : FVec Ideal SX .f32) (wl wr : FVec Ideal SW .f32) (b : FVec Ideal SR .f32) :
    Cert.Sage.hidden a x wl wr b
      = maximumf (addf (addf (Host.dotGeneral D none a wl)
                   (Host.dotGeneral D none x wr))
             (broadcastInDim SX ![0, 1] hrow b)) (zeros hzero) := by
  rw [← affine_eq hrow D hD]
  funext i
  show max (Cert.Sage.affineAt a x wl wr b (i 0) (i 1)) 0 = max (Cert.Sage.affine a x wl wr b i) ((zeros hzero) i)
  rw [zeros_apply]
  rfl

/-- THE BIAS ROW: a vector reshaped to a one-row matrix is the vector broadcast along a new unit leading axis. -/
theorem bias_row_eq (v : FVec Ideal SV .f32) :
    shapeCast SR v hcast = broadcastInDim SR ![1] hvec v := by
  funext j
  have hj0 : (j 0).val = 0 := by have := (j 0).isLt; simp at this; omega
  rw [shapeCast_apply v hcast j (ix1 ⟨(j 1).val, (j 1).isLt⟩) (by
      rw [Shape.rowMajor_val_one, Shape.rowMajor_val_two]
      show (j 1).val = (j 0).val * 128 + (j 1).val
      omega),
    broadcastInDim_apply _ hvec v j (ix1 ⟨(j 1).val, (j 1).isLt⟩) (fun a => match a with
      | ⟨0, _⟩ => by show (j 1).val = if (128 : Nat) = 1 then 0 else (j 1).val; rw [if_neg (by decide)])]

end Cert.Sage.Bridge

end
-- ==== Proof.Terms.lean ====
/-
  The array-level spelling of the neighbourhood mean that both programs share, with its operands left open.

  For destination ids dst and source ids src (one per edge) and node features h:
  the source ids with negative ones wrapped by the number of nodes select one row of h per edge; the rows are
  added into a zero array at their destination ids (the per-node sum of incoming rows); the in-degree is the
  same accumulation of a column of ones; and the mean is the per-node sum times a column spread along the rows.
  Keeping src, dst, h and the column as parameters lets one statement serve all three layers.
-/
import proofs.«175581_j90555090469222_1_alg».proof.Proof.Gen.ReferenceIdeal.Read
import proofs.«175581_j90555090469222_1_alg».proof.Proof.Bridge

noncomputable section

namespace Cert.Sage.Terms

open Cert.ReferenceIdeal Cert.ReferenceIdeal.Gen Cert.ReferenceIdeal.Read Idealize.ShloMosaic

/-- The source ids, negatives wrapped by the node count, laid out as a column of gather indices. -/
abbrev wrapCol (src : IVec S1600000 32) : IVec S1600000x1 32 :=
  broadcastInDim S1600000x1 ![0] bcast_S1600000_S1600000x1_0
    (select (cmpi .slt src (val_main_v10 (F := Ideal))) (addi src (val_main_v12 (F := Ideal))) src)

/-- The per-node sum of the rows of h selected by the edges' sources, accumulated at the edges' destinations. -/
abbrev msgSumOf (dst src : IVec S1600000 32) (h : FVec Ideal S100000x128 .f32) : FVec Ideal S100000x128 .f32 :=
  Host.scatterAdd scatter_S100000x128_S1600000x1_S1600000x128_1_0_0_1 (val_main_v17 (F := Ideal))
    (broadcastInDim S1600000x1 ![0] bcast_S1600000_S1600000x1_0 dst)
    (Host.gather gather_S100000x128_S1600000x1_S1600000x128_1_0_n_n_0_1_1128 h (wrapCol src))

/-- The column of ones. -/
abbrev ones : FVec Ideal S100000x1 .f32 := Cert.Sage.Bridge.onesCol bcast_S_S100000x1

/-- The in-degree column: ones accumulated at the edges' destinations. -/
abbrev degreeOf (dst : IVec S1600000 32) : FVec Ideal S100000x1 .f32 :=
  Host.scatterAdd scatter_S100000x1_S1600000x1_S1600000x1_1_0_0_1 (val_main_v21 (F := Ideal))
    (broadcastInDim S1600000x1 ![0] bcast_S1600000_S1600000x1_0 dst) (val_main_v20 (F := Ideal))

/-- The reciprocal of the in-degree clamped below at one. -/
abbrev recipOf (dst : IVec S1600000 32) : FVec Ideal S100000x1 .f32 :=
  Host.divf ones (maximumf (degreeOf dst) ones)

/-- The per-node sum times a column spread along the rows. -/
abbrev scaledBy (dst src : IVec S1600000 32) (col : FVec Ideal S100000x1 .f32) (h : FVec Ideal S100000x128 .f32) :
    FVec Ideal S100000x128 .f32 :=
  mulf (msgSumOf dst src h) (broadcastInDim S100000x128 ![0, 1] bcast_S100000x1_S100000x128_0_1 col)

end Cert.Sage.Terms

end
-- ==== Proof.Args.lean ====
/-
  The five argument arrays as the launch memory holds them on a core: the node features, the edge list, the
  aggregation weights, the root weights and the biases.
-/
import proofs.«175581_j90555090469222_1_alg».proof.KernelIdeal
import Idealize.ShloMosaic.PureOps.Ideal

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

abbrev x0 : FVec Ideal S100000x128 .f32 := m ((c : Thread nD τ).loc main_arg0)
abbrev x1 : IVec S2x1600000 32 := m ((c : Thread nD τ).loc main_arg1)
abbrev x2 : FVec Ideal S3x128x128 .f32 := m ((c : Thread nD τ).loc main_arg2)
abbrev x3 : FVec Ideal S3x128x128 .f32 := m ((c : Thread nD τ).loc main_arg3)
abbrev x4 : FVec Ideal S3x128 .f32 := m ((c : Thread nD τ).loc main_arg4)

end Cert.KernelIdeal.Args

end
-- ==== Proof.Entry0.lean ====
/-
  What the first launch finds in its five input arrays.

  Before the first launch the program splits the edge list into source and destination ids, counts the
  in-degrees, forms the reciprocal of the clamped in-degree, takes the per-node sum of the gathered rows of the
  input features times that reciprocal spread along the rows, and cuts the first layer's two weight matrices and
  bias row out of the parameter arrays. The root features are the input features themselves.
-/
import proofs.«175581_j90555090469222_1_alg».proof.Proof.Gen.KernelIdeal.Frame
import proofs.«175581_j90555090469222_1_alg».proof.Proof.Terms
import proofs.«175581_j90555090469222_1_alg».proof.Proof.Args

set_option maxRecDepth 16384

noncomputable section

namespace Cert.KernelIdeal.Entry0

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v5 val_main_v7 val_main_v9 val_main_v36 val_main_v38
  val_main_v40 val_main_v67 val_main_v69 val_main_v71)
open Cert.Sage.Terms Cert.KernelIdeal.Args

variable (m : (ℓ : Loc nD τ sig) → Buf (Elt Ideal) ℓ) (ρ : Dev nD → PrngReg) (c : Dev nD)

theorem agg : V1 m ρ c main_v23
    = scaledBy (val_main_v3 (F := Ideal) (x1 m c)) (val_main_v1 (F := Ideal) (x1 m c))
        (recipOf (val_main_v3 (F := Ideal) (x1 m c))) (x0 m c) := by
  show StableHlo.after hostOps0 (W0 m ρ c) (Proc.devRef .tc main_v23) = _
  after_results_simp <;> rfl
theorem root : V1 m ρ c main_arg0 = x0 m c := by
  show StableHlo.after hostOps0 (W0 m ρ c) (Proc.devRef .tc main_arg0) = _
  after_results_simp <;> rfl
theorem wagg : V1 m ρ c main_v25 = val_main_v5 (F := Ideal) (x2 m c) := by
  show StableHlo.after hostOps0 (W0 m ρ c) (Proc.devRef .tc main_v25) = _
  after_results_simp <;> rfl
theorem wroot : V1 m ρ c main_v27 = val_main_v7 (F := Ideal) (x3 m c) := by
  show StableHlo.after hostOps0 (W0 m ρ c) (Proc.devRef .tc main_v27) = _
  after_results_simp <;> rfl
theorem bias : V1 m ρ c main_v30 = shapeCast S1x128 (val_main_v9 (F := Ideal) (x4 m c)) shapeCasts_S128_S1x128 := by
  show StableHlo.after hostOps0 (W0 m ρ c) (Proc.devRef .tc main_v30) = _
  after_results_simp <;> rfl

end Cert.KernelIdeal.Entry0

end
-- ==== Proof.Entry1.lean ====
/-
  What the second launch finds in its five input arrays, in terms of the arrays the previous launch left.

  Between two launches the program gathers the rows of the previous layer's output by the wrapped source ids,
  accumulates them at the destination ids, multiplies by the reciprocal of the clamped in-degree spread along the
  rows, and cuts the layer's two weight matrices and bias row out of the parameter arrays. The root features are
  the previous layer's output, which this stretch does not write.
-/
import proofs.«175581_j90555090469222_1_alg».proof.Proof.Gen.KernelIdeal.Frame
import proofs.«175581_j90555090469222_1_alg».proof.Proof.Terms
import proofs.«175581_j90555090469222_1_alg».proof.Proof.Args

set_option maxRecDepth 16384

noncomputable section

namespace Cert.KernelIdeal.Entry1

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v5 val_main_v7 val_main_v9 val_main_v36 val_main_v38
  val_main_v40 val_main_v67 val_main_v69 val_main_v71)
open Cert.Sage.Terms Cert.KernelIdeal.Args

variable (m : (ℓ : Loc nD τ sig) → Buf (Elt Ideal) ℓ) (ρ : Dev nD → PrngReg) (c : Dev nD)

theorem agg : V3 m ρ c main_v43
    = scaledBy (W2 m ρ c (Proc.devRef .tc main_v3)) (W2 m ρ c (Proc.devRef .tc main_v1))
        (W2 m ρ c (Proc.devRef .tc main_v11)) (W2 m ρ c (Proc.devRef .tc main_v31)) := by
  show StableHlo.after hostOps1 (W2 m ρ c) (Proc.devRef .tc main_v43) = _
  after_results_simp <;> rfl
theorem root : V3 m ρ c main_v31 = W2 m ρ c (Proc.devRef .tc main_v31) := by
  show StableHlo.after hostOps1 (W2 m ρ c) (Proc.devRef .tc main_v31) = _
  after_results_simp <;> rfl
theorem wagg : V3 m ρ c main_v45 = val_main_v36 (F := Ideal) (W2 m ρ c (Proc.devRef .tc main_arg2)) := by
  show StableHlo.after hostOps1 (W2 m ρ c) (Proc.devRef .tc main_v45) = _
  after_results_simp <;> rfl
theorem wroot : V3 m ρ c main_v47 = val_main_v38 (F := Ideal) (W2 m ρ c (Proc.devRef .tc main_arg3)) := by
  show StableHlo.after hostOps1 (W2 m ρ c) (Proc.devRef .tc main_v47) = _
  after_results_simp <;> rfl
theorem bias : V3 m ρ c main_v50
    = shapeCast S1x128 (val_main_v40 (F := Ideal) (W2 m ρ c (Proc.devRef .tc main_arg4))) shapeCasts_S128_S1x128 := by
  show StableHlo.after hostOps1 (W2 m ρ c) (Proc.devRef .tc main_v50) = _
  after_results_simp <;> rfl

end Cert.KernelIdeal.Entry1

end
-- ==== Proof.Entry2.lean ====
/-
  What the third launch finds in its five input arrays, in terms of the arrays the previous launch left.

  Between two launches the program gathers the rows of the previous layer's output by the wrapped source ids,
  accumulates them at the destination ids, multiplies by the reciprocal of the clamped in-degree spread along the
  rows, and cuts the layer's two weight matrices and bias row out of the parameter arrays. The root features are
  the previous layer's output, which this stretch does not write.
-/
import proofs.«175581_j90555090469222_1_alg».proof.Proof.Gen.KernelIdeal.Frame
import proofs.«175581_j90555090469222_1_alg».proof.Proof.Terms
import proofs.«175581_j90555090469222_1_alg».proof.Proof.Args

set_option maxRecDepth 16384

noncomputable section

namespace Cert.KernelIdeal.Entry2

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v5 val_main_v7 val_main_v9 val_main_v36 val_main_v38
  val_main_v40 val_main_v67 val_main_v69 val_main_v71)
open Cert.Sage.Terms Cert.KernelIdeal.Args

variable (m : (ℓ : Loc nD τ sig) → Buf (Elt Ideal) ℓ) (ρ : Dev nD → PrngReg) (c : Dev nD)

theorem agg : V5 m ρ c main_v63
    = scaledBy (W4 m ρ c (Proc.devRef .tc main_v3)) (W4 m ρ c (Proc.devRef .tc main_v1))
        (W4 m ρ c (Proc.devRef .tc main_v11)) (W4 m ρ c (Proc.devRef .tc main_v51)) := by
  show StableHlo.after hostOps2 (W4 m ρ c) (Proc.devRef .tc main_v63) = _
  after_results_simp <;> rfl
theorem root : V5 m ρ c main_v51 = W4 m ρ c (Proc.devRef .tc main_v51) := by
  show StableHlo.after hostOps2 (W4 m ρ c) (Proc.devRef .tc main_v51) = _
  after_results_simp <;> rfl
theorem wagg : V5 m ρ c main_v65 = val_main_v67 (F := Ideal) (W4 m ρ c (Proc.devRef .tc main_arg2)) := by
  show StableHlo.after hostOps2 (W4 m ρ c) (Proc.devRef .tc main_v65) = _
  after_results_simp <;> rfl
theorem wroot : V5 m ρ c main_v67 = val_main_v69 (F := Ideal) (W4 m ρ c (Proc.devRef .tc main_arg3)) := by
  show StableHlo.after hostOps2 (W4 m ρ c) (Proc.devRef .tc main_v67) = _
  after_results_simp <;> rfl
theorem bias : V5 m ρ c main_v70
    = shapeCast S1x128 (val_main_v71 (F := Ideal) (W4 m ρ c (Proc.devRef .tc main_arg4))) shapeCasts_S128_S1x128 := by
  show StableHlo.after hostOps2 (W4 m ρ c) (Proc.devRef .tc main_v70) = _
  after_results_simp <;> rfl

end Cert.KernelIdeal.Entry2

end
-- ==== Proof.Persist.lean ====
/-
  The arrays that outlive the launches.

  The source and destination ids, the reciprocal of the clamped in-degree and the three parameter arrays are
  computed or given once, before the first launch, and nothing later writes them: no launch has one of them as
  its output array and no later array operation has one as its result. So at the entry of the second and of the
  third launch they still hold what the first stretch of array operations left, which is spelt here with the
  reference's stage functions of the same launch arguments.
-/
import proofs.«175581_j90555090469222_1_alg».proof.Proof.Gen.KernelIdeal.Frame
import proofs.«175581_j90555090469222_1_alg».proof.Proof.Terms
import proofs.«175581_j90555090469222_1_alg».proof.Proof.Args

set_option maxRecDepth 16384

noncomputable section

namespace Cert.KernelIdeal.Persist

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v5 val_main_v7 val_main_v9 val_main_v36 val_main_v38
  val_main_v40 val_main_v67 val_main_v69 val_main_v71)
open Cert.Sage.Terms Cert.KernelIdeal.Args

variable (m : (ℓ : Loc nD τ sig) → Buf (Elt Ideal) ℓ) (ρ : Dev nD → PrngReg) (c : Dev nD)

/-! ## After the first stretch -/

theorem src_W1 : W1 m ρ c (Proc.devRef .tc main_v1) = val_main_v1 (F := Ideal) (x1 m c) := by
  show StableHlo.after hostOps0 (W0 m ρ c) (Proc.devRef .tc main_v1) = _
  after_results_simp <;> rfl
theorem dst_W1 : W1 m ρ c (Proc.devRef .tc main_v3) = val_main_v3 (F := Ideal) (x1 m c) := by
  show StableHlo.after hostOps0 (W0 m ρ c) (Proc.devRef .tc main_v3) = _
  after_results_simp <;> rfl
theorem recip_W1 : W1 m ρ c (Proc.devRef .tc main_v11) = recipOf (val_main_v3 (F := Ideal) (x1 m c)) := by
  show StableHlo.after hostOps0 (W0 m ρ c) (Proc.devRef .tc main_v11) = _
  after_results_simp <;> rfl
theorem wagg_W1 : W1 m ρ c (Proc.devRef .tc main_arg2) = x2 m c := by
  show StableHlo.after hostOps0 (W0 m ρ c) (Proc.devRef .tc main_arg2) = _
  after_results_simp <;> rfl
theorem wroot_W1 : W1 m ρ c (Proc.devRef .tc main_arg3) = x3 m c := by
  show StableHlo.after hostOps0 (W0 m ρ c) (Proc.devRef .tc main_arg3) = _
  after_results_simp <;> rfl
theorem bias_W1 : W1 m ρ c (Proc.devRef .tc main_arg4) = x4 m c := by
  show StableHlo.after hostOps0 (W0 m ρ c) (Proc.devRef .tc main_arg4) = _
  after_results_simp <;> rfl

/-! ## After the first launch: none of them is one of its six arrays -/

theorem src_W2 : W2 m ρ c (Proc.devRef .tc main_v1) = val_main_v1 (F := Ideal) (x1 m c) :=
  (W2_of_ne m ρ c main_v1 (by decide)).trans (src_W1 m ρ c)
theorem dst_W2 : W2 m ρ c (Proc.devRef .tc main_v3) = val_main_v3 (F := Ideal) (x1 m c) :=
  (W2_of_ne m ρ c main_v3 (by decide)).trans (dst_W1 m ρ c)
theorem recip_W2 : W2 m ρ c (Proc.devRef .tc main_v11) = recipOf (val_main_v3 (F := Ideal) (x1 m c)) :=
  (W2_of_ne m ρ c main_v11 (by decide)).trans (recip_W1 m ρ c)
theorem wagg_W2 : W2 m ρ c (Proc.devRef .tc main_arg2) = x2 m c :=
  (W2_of_ne m ρ c main_arg2 (by decide)).trans (wagg_W1 m ρ c)
theorem wroot_W2 : W2 m ρ c (Proc.devRef .tc main_arg3) = x3 m c :=
  (W2_of_ne m ρ c main_arg3 (by decide)).trans (wroot_W1 m ρ c)
theorem bias_W2 : W2 m ρ c (Proc.devRef .tc main_arg4) = x4 m c :=
  (W2_of_ne m ρ c main_arg4 (by decide)).trans (bias_W1 m ρ c)

/-! ## Through the second stretch, which writes none of them -/

theorem src_W3 : W3 m ρ c (Proc.devRef .tc main_v1) = W2 m ρ c (Proc.devRef .tc main_v1) := by
  show StableHlo.after hostOps1 (W2 m ρ c) (Proc.devRef .tc main_v1) = _
  after_results_simp <;> rfl
theorem dst_W3 : W3 m ρ c (Proc.devRef .tc main_v3) = W2 m ρ c (Proc.devRef .tc main_v3) := by
  show StableHlo.after hostOps1 (W2 m ρ c) (Proc.devRef .tc main_v3) = _
  after_results_simp <;> rfl
theorem recip_W3 : W3 m ρ c (Proc.devRef .tc main_v11) = W2 m ρ c (Proc.devRef .tc main_v11) := by
  show StableHlo.after hostOps1 (W2 m ρ c) (Proc.devRef .tc main_v11) = _
  after_results_simp <;> rfl
theorem wagg_W3 : W3 m ρ c (Proc.devRef .tc main_arg2) = W2 m ρ c (Proc.devRef .tc main_arg2) := by
  show StableHlo.after hostOps1 (W2 m ρ c) (Proc.devRef .tc main_arg2) = _
  after_results_simp <;> rfl
theorem wroot_W3 : W3 m ρ c (Proc.devRef .tc main_arg3) = W2 m ρ c (Proc.devRef .tc main_arg3) := by
  show StableHlo.after hostOps1 (W2 m ρ c) (Proc.devRef .tc main_arg3) = _
  after_results_simp <;> rfl
theorem bias_W3 : W3 m ρ c (Proc.devRef .tc main_arg4) = W2 m ρ c (Proc.devRef .tc main_arg4) := by
  show StableHlo.after hostOps1 (W2 m ρ c) (Proc.devRef .tc main_arg4) = _
  after_results_simp <;> rfl

/-! ## After the second launch -/

theorem src_W4 : W4 m ρ c (Proc.devRef .tc main_v1) = val_main_v1 (F := Ideal) (x1 m c) :=
  (W4_of_ne m ρ c main_v1 (by decide)).trans ((src_W3 m ρ c).trans (src_W2 m ρ c))
theorem dst_W4 : W4 m ρ c (Proc.devRef .tc main_v3) = val_main_v3 (F := Ideal) (x1 m c) :=
  (W4_of_ne m ρ c main_v3 (by decide)).trans ((dst_W3 m ρ c).trans (dst_W2 m ρ c))
theorem recip_W4 : W4 m ρ c (Proc.devRef .tc main_v11) = recipOf (val_main_v3 (F := Ideal) (x1 m c)) :=
  (W4_of_ne m ρ c main_v11 (by decide)).trans ((recip_W3 m ρ c).trans (recip_W2 m ρ c))
theorem wagg_W4 : W4 m ρ c (Proc.devRef .tc main_arg2) = x2 m c :=
  (W4_of_ne m ρ c main_arg2 (by decide)).trans ((wagg_W3 m ρ c).trans (wagg_W2 m ρ c))
theorem wroot_W4 : W4 m ρ c (Proc.devRef .tc main_arg3) = x3 m c :=
  (W4_of_ne m ρ c main_arg3 (by decide)).trans ((wroot_W3 m ρ c).trans (wroot_W2 m ρ c))
theorem bias_W4 : W4 m ρ c (Proc.devRef .tc main_arg4) = x4 m c :=
  (W4_of_ne m ρ c main_arg4 (by decide)).trans ((bias_W3 m ρ c).trans (bias_W2 m ρ c))

end Cert.KernelIdeal.Persist

end
-- ==== Proof.LayerLaw.lean ====
/-
  One layer, from the spelling the tiled program's arrays take to the spelling the reference's stages take.

  The tiled program's layer is the dense layer function applied to (per-node sum) * spread (1 / max degree 1),
  the root features, the two weight matrices and the bias vector reshaped to a row. The reference's layer is
  the maximum with the zero array (hidden layers only) of
      (per-node sum / spread (max degree 1)) · wl + h · wr + spread (bias vector as a row).
  The three identities of the bridge turn the first into the second: the dense layer function is the two matrix
  products plus the spread bias; multiplying by the spread reciprocal is dividing by the spread clamped degree;
  the reshaped bias vector is the broadcast one.
-/
import proofs.«175581_j90555090469222_1_alg».proof.Proof.Terms

noncomputable section

namespace Cert.Sage.LayerLaw

open Cert.ReferenceIdeal Cert.ReferenceIdeal.Gen Cert.ReferenceIdeal.Read Idealize.ShloMosaic Cert.Sage.Terms

/-- The reference's matrix product contracts the left operand's columns with the right operand's rows. -/
theorem dot_plain : dot_S100000x128_S128x128_S100000x128_1_0_0_1_n_n = DotDims.plain 100000 128 128 := rfl

/-- The reference's spelling of the mean: the per-node sum divided by the spread clamped in-degree. -/
abbrev meanOf (dst src : IVec S1600000 32) (h : FVec Ideal S100000x128 .f32) : FVec Ideal S100000x128 .f32 :=
  Host.divf (msgSumOf dst src h) (broadcastInDim S100000x128 ![0, 1] bcast_S100000x1_S100000x128_0_1 (maximumf (degreeOf dst) ones))

/-- The reference's spelling of the affine part of a layer. -/
abbrev affineOf (dst src : IVec S1600000 32) (h : FVec Ideal S100000x128 .f32) (wl wr : FVec Ideal S128x128 .f32)
    (bv : FVec Ideal S128 .f32) : FVec Ideal S100000x128 .f32 :=
  addf (addf (Host.dotGeneral dot_S100000x128_S128x128_S100000x128_1_0_0_1_n_n none (meanOf dst src h) wl)
             (Host.dotGeneral dot_S100000x128_S128x128_S100000x128_1_0_0_1_n_n none h wr))
       (broadcastInDim S100000x128 ![0, 1] bcast_S1x128_S100000x128_0_1 (broadcastInDim S1x128 ![1] bcast_S128_S1x128_1 bv))

theorem scaled_eq_mean (dst src : IVec S1600000 32) (h : FVec Ideal S100000x128 .f32) :
    scaledBy dst src (recipOf dst) h = meanOf dst src h :=
  Cert.Sage.Bridge.mean_eq bcast_S_S100000x1 bcast_S100000x1_S100000x128_0_1 (msgSumOf dst src h) (degreeOf dst)

/-- The last layer. -/
theorem affine_layer (dst src : IVec S1600000 32) (h : FVec Ideal S100000x128 .f32) (wl wr : FVec Ideal S128x128 .f32)
    (bv : FVec Ideal S128 .f32) (hcast : S128.ShapeCasts S1x128) :
    Cert.Sage.affine (scaledBy dst src (recipOf dst) h) h wl wr (shapeCast S1x128 bv hcast) = affineOf dst src h wl wr bv := by
  rw [scaled_eq_mean, Cert.Sage.Bridge.bias_row_eq bcast_S128_S1x128_1 hcast]
  exact Cert.Sage.Bridge.affine_eq bcast_S1x128_S100000x128_0_1 _ dot_plain _ _ _ _ _

/-- A hidden layer. -/
theorem hidden_layer (dst src : IVec S1600000 32) (h : FVec Ideal S100000x128 .f32) (wl wr : FVec Ideal S128x128 .f32)
    (bv : FVec Ideal S128 .f32) (hcast : S128.ShapeCasts S1x128) :
    Cert.Sage.hidden (scaledBy dst src (recipOf dst) h) h wl wr (shapeCast S1x128 bv hcast)
      = maximumf (affineOf dst src h wl wr bv) (Cert.Sage.Bridge.zeros bcast_S_S100000x128) := by
  rw [scaled_eq_mean, Cert.Sage.Bridge.bias_row_eq bcast_S128_S1x128_1 hcast]
  exact Cert.Sage.Bridge.hidden_eq bcast_S1x128_S100000x128_0_1 bcast_S_S100000x128 _ dot_plain _ _ _ _ _

end Cert.Sage.LayerLaw

end
-- ==== Proof.Layers.lean ====
/-
  The tiled program's three layers are the reference's three layers, as functions of the launch arguments.

  After launch k the layer's output array holds the dense layer function of the five arrays the launch found
  (the launch read as a whole-array function). Those five arrays are what the preceding stretch of array
  operations left: the scaled per-node sum of the gathered rows of the previous layer's output, that output
  itself, and the layer's parameters. The ids, the reciprocal degree and the parameter arrays are still what
  the first stretch computed. The layer law then puts the result in the reference's spelling, whose stages
  unfold to exactly that; the previous layer's output enters by the previous step of this same argument.
-/
import proofs.«175581_j90555090469222_1_alg».proof.Proof.Region0
import proofs.«175581_j90555090469222_1_alg».proof.Proof.Region1
import proofs.«175581_j90555090469222_1_alg».proof.Proof.Region2
import proofs.«175581_j90555090469222_1_alg».proof.Proof.Entry0
import proofs.«175581_j90555090469222_1_alg».proof.Proof.Entry1
import proofs.«175581_j90555090469222_1_alg».proof.Proof.Entry2
import proofs.«175581_j90555090469222_1_alg».proof.Proof.Persist
import proofs.«175581_j90555090469222_1_alg».proof.Proof.LayerLaw

set_option maxRecDepth 16384

noncomputable section

namespace Cert.KernelIdeal.Layers

open Cert.KernelIdeal Cert.KernelIdeal.Gen
open Idealize.ShloMosaic Idealize.ShloMosaic.TcCoe Idealize.SL.Sem
open Cert.ReferenceIdeal.Read (val_main_v34 val_main_v65 val_main_v95)
open Cert.Sage.Terms Cert.KernelIdeal.Args

variable (m : (ℓ : Loc nD τ sig) → Buf (Elt Ideal) ℓ) (ρ : Dev nD → PrngReg) (c : Dev nD)

/-- The first layer's output, after the first launch. -/
theorem layer1 : W2 m ρ c (Proc.devRef .tc main_v31)
    = val_main_v34 (F := Ideal) (x0 m c) (x1 m c) (x2 m c) (x3 m c) (x4 m c) := by
  refine (W2_arr m ρ c 5).trans ?_
  refine (Cert.KernelIdeal.Region0.final (V1 m ρ) c).trans ?_
  rw [Entry0.agg m ρ c, Entry0.root m ρ c, Entry0.wagg m ρ c, Entry0.wroot m ρ c, Entry0.bias m ρ c]
  refine (Cert.Sage.LayerLaw.hidden_layer _ _ _ _ _ _ _).trans ?_
  rfl

/-- The second layer's output, after the second launch. -/
theorem layer2 : W4 m ρ c (Proc.devRef .tc main_v51)
    = val_main_v65 (F := Ideal) (x0 m c) (x1 m c) (x2 m c) (x3 m c) (x4 m c) := by
  refine (W4_arr m ρ c 5).trans ?_
  refine (Cert.KernelIdeal.Region1.final (V3 m ρ) c).trans ?_
  rw [Entry1.agg m ρ c, Entry1.root m ρ c, Entry1.wagg m ρ c, Entry1.wroot m ρ c, Entry1.bias m ρ c,
    Persist.dst_W2 m ρ c, Persist.src_W2 m ρ c, Persist.recip_W2 m ρ c, Persist.wagg_W2 m ρ c, Persist.wroot_W2 m ρ c,
    Persist.bias_W2 m ρ c, layer1 m ρ c]
  refine (Cert.Sage.LayerLaw.hidden_layer _ _ _ _ _ _ _).trans ?_
  rfl

/-- The result, after the third launch. -/
theorem layer3 : W6 m ρ c (Proc.devRef .tc main_v71)
    = val_main_v95 (F := Ideal) (x0 m c) (x1 m c) (x2 m c) (x3 m c) (x4 m c) := by
  refine (W6_arr m ρ c 5).trans ?_
  refine (Cert.KernelIdeal.Region2.final (V5 m ρ) c).trans ?_
  rw [Entry2.agg m ρ c, Entry2.root m ρ c, Entry2.wagg m ρ c, Entry2.wroot m ρ c, Entry2.bias m ρ c,
    Persist.dst_W4 m ρ c, Persist.src_W4 m ρ c, Persist.recip_W4 m ρ c, Persist.wagg_W4 m ρ c, Persist.wroot_W4 m ρ c,
    Persist.bias_W4 m ρ c, layer2 m ρ c]
  refine (Cert.Sage.LayerLaw.affine_layer _ _ _ _ _ _ _).trans ?_
  rfl

end Cert.KernelIdeal.Layers

end
-- ==== Proof.lean ====
/-
  A three-layer graph convolution with mean aggregation: a program that runs each layer's dense part as a
  row-tiled launch, against a plain array program. Both are read on the extended reals.

  Per layer both gather the previous features by the edges' source ids, add them up at the destination ids, turn
  the sums into means by the in-degree clamped below at one, and return mean · W_agg + features · W_root + bias,
  clamped below at zero except in the last layer. They differ in three ways, none of which changes a value on
  the extended reals: the tiled program computes the degree once and multiplies by its reciprocal where the
  reference divides (s * (1 / c) = s / c for c ≠ 0, and max n 1 ≠ 0); it computes the dense part block of
  2000 rows by block, each block's entries being the same sums over k as the whole product's; and it narrows
  its matrix operands' float format first, which is the identity here.

  The three frames: the two tiled programs' are the generated ones; the reference's is its generated run with the
  result dropped. Nothing was rewritten in idealizing the tiled program, so that conjunct is trivial. For the
  equivalence, the tiled program's run names its result array as a fold over its launches and array operations,
  that fold is the reference's last stage of the same arguments (layer by layer), and the reference's run ends at
  that stage of arguments that agree.
-/
import proofs.«175581_j90555090469222_1_alg».proof.Defs
import proofs.«175581_j90555090469222_1_alg».proof.Proof.Gen.Kernel
import proofs.«175581_j90555090469222_1_alg».proof.Proof.Gen.Kernel.Skeleton
import proofs.«175581_j90555090469222_1_alg».proof.Proof.Gen.Kernel.Launch
import proofs.«175581_j90555090469222_1_alg».proof.Proof.Gen.Kernel.Points
import proofs.«175581_j90555090469222_1_alg».proof.Proof.Gen.Kernel.Frame
import proofs.«175581_j90555090469222_1_alg».proof.Proof.Gen.KernelIdeal
import proofs.«175581_j90555090469222_1_alg».proof.Proof.Gen.KernelIdeal.Skeleton
import proofs.«175581_j90555090469222_1_alg».proof.Proof.Gen.KernelIdeal.Launch
import proofs.«175581_j90555090469222_1_alg».proof.Proof.Gen.KernelIdeal.Points
import proofs.«175581_j90555090469222_1_alg».proof.Proof.Gen.KernelIdeal.Frame
import proofs.«175581_j90555090469222_1_alg».proof.Proof.Gen.ReferenceIdeal
import proofs.«175581_j90555090469222_1_alg».proof.Proof.Gen.ReferenceIdeal.Run
import proofs.«175581_j90555090469222_1_alg».proof.Proof.Gen.ReferenceIdeal.Read
import proofs.«175581_j90555090469222_1_alg».proof.Proof.Gen.Pre_finite_inputs
import proofs.«175581_j90555090469222_1_alg».proof.Proof.KernelRun
import proofs.«175581_j90555090469222_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the tiled program rewrote no operation. -/
theorem preserves : Cert.preserves_Kernel_KernelIdeal := trivial

/-- Both programs end with the reference's last stage of the launch arguments in their result arrays. -/
theorem algebraic : Cert.algebraic_KernelIdeal_ReferenceIdeal := by
  intro m ρ m' ρ' _ hagree
  refine ⟨fun c => Cert.ReferenceIdeal.Read.val_main_v95 (F := Ideal) (Cert.KernelIdeal.Args.x0 m c) (Cert.KernelIdeal.Args.x1 m c)
    (Cert.KernelIdeal.Args.x2 m c) (Cert.KernelIdeal.Args.x3 m c) (Cert.KernelIdeal.Args.x4 m c), ?_, ?_⟩
  · exact (θ_run Cert.KernelIdeal.defs _ _).mono
      (fun r h c => ⟨(h c).1.trans (Cert.KernelIdeal.Layers.layer3 m ρ c), (h c).2⟩)
      (Cert.KernelIdeal.ResultRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
